-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S1024x1024 : Shape := ⟨2, ![1024, 1024]⟩
abbrev S1024 : Shape := ⟨1, ![1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S256x1024 .f32) (main_arg1 : FVec F S1024x1024 .f32) (main_arg2 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩
abbrev S1024x128 : Shape := ⟨2, ![1024, 128]⟩
abbrev S1x128 : Shape := ⟨2, ![1, 128]⟩
abbrev S128x128 : Shape := ⟨2, ![128, 128]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1024x128, .f32⟩
  | .local _ .vmem, ⟨3, _⟩ => ⟨S1024x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v8 : BitVec 32 := Scalar.muli arg6 c128_i32
  v8
def k0_off1 (k0_t1 : Fin k0_t1_loop.trips) : Fin 2 → Nat :=
  let c0_4 : Index := 0#32
  let c0_i32 : BitVec 32 := 0#32
  let c1_i32 : BitVec 32 := 1#32
  let arg6 : BitVec 32 := Scf.iv c0_i32 c1_i32 k0_t1
  let c128_i32 : BitVec 32 := 128#32
  let v8 : BitVec 32 := Scalar.muli arg6 c128_i32
  let v9 : BitVec 32 := v8
  let v10 : Index := Scalar.indexCast v9
  ![0, v10.toNat]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v8 : BitVec 32 := Scalar.muli arg6 c128_i32
  let v9 : BitVec 32 := v8
  let v12 : Index := Scalar.indexCast v9
  let c0_5 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024_S1x1024 : S1024.ShapeCasts S1x1024
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  reduces_S128x128x128_S128x128 : S128x128x128.Reduces [1] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S128x1024.size a
  k0_off2_inb : ∀ k0_t1 : Fin k0_t1_loop.trips, ∀ a, (k0_off2 k0_t1) a + S128x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S256x1024.size a
  hwx0_0 : ∀ i : grid0.Coords, EltTy.bits .f32 = 32 ∨ (Rect.block (s := S256x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x1024.size a
  hwx0_1 : ∀ i : grid0.Coords, EltTy.bits .f32 = 32 ∨ (Rect.block (s := S1024x1024) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .f32 = 32 ∨ (Rect.block (s := S1x1024) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S256x1024.size a
  hwx0_3 : ∀ i : grid0.Coords, EltTy.bits .f32 = 32 ∨ (Rect.block (s := S256x1024) S128x128.size (cc0_transform_3 i) (hinb0_3 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x1024 : Shape := ⟨2, ![256, 1024]⟩
abbrev S1024x1024 : Shape := ⟨2, ![1024, 1024]⟩
abbrev S1024 : Shape := ⟨1, ![1024]⟩
abbrev S256x1024x1 : Shape := ⟨3, ![256, 1024, 1]⟩
abbrev S1x1024x1024 : Shape := ⟨3, ![1, 1024, 1024]⟩
abbrev S256x1024x1024 : Shape := ⟨3, ![256, 1024, 1024]⟩
abbrev S_ : Shape := ⟨0, ![]⟩
abbrev S1x1024 : Shape := ⟨2, ![1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024, .f32⟩
  | .hbm, ⟨3, _⟩ => ⟨S256x1024x1, .f32⟩
  | .hbm, ⟨4, _⟩ => ⟨S1x1024x1024, .f32⟩
  | .hbm, ⟨5, _⟩ => ⟨S256x1024x1024, .f32⟩
  | .hbm, ⟨6, _⟩ => ⟨S256x1024x1024, .f32⟩
  | .hbm, ⟨7, _⟩ => ⟨S256x1024x1024, .f32⟩
  | .hbm, ⟨8, _⟩ => ⟨S_, .f32⟩
  | .hbm, ⟨9, _⟩ => ⟨S256x1024, .f32⟩
  | .hbm, ⟨10, _⟩ => ⟨S1x1024, .f32⟩
  | .hbm, ⟨11, _⟩ => ⟨S256x1024, .f32⟩
  | .hbm, ⟨12, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S256x1024_S256x1024x1_0_1 : S256x1024.BroadcastsInDim S256x1024x1 (![0, 1] : Fin 2 → Fin S256x1024x1.rank)
  bcast_S1024x1024_S1x1024x1024_1_2 : S1024x1024.BroadcastsInDim S1x1024x1024 (![1, 2] : Fin 2 → Fin S1x1024x1024.rank)
  bcast_S256x1024x1_S256x1024x1024_0_1_2 : S256x1024x1.BroadcastsInDim S256x1024x1024 (![0, 1, 2] : Fin 3 → Fin S256x1024x1024.rank)
  bcast_S1x1024x1024_S256x1024x1024_0_1_2 : S1x1024x1024.BroadcastsInDim S256x1024x1024 (![0, 1, 2] : Fin 3 → Fin S256x1024x1024.rank)
  reducesTo_S256x1024x1024_S256x1024_d1 : S256x1024x1024.ReducesTo [1] S256x1024
  h_S_ : 0 < S_.numel
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)

variable [Facts₀]

class Facts : Prop extends Facts₀ where

variable [Facts]
-- ==== Proof.Spec.lean ====
/-
  The tropical ("max-plus") dense layer, as mathematics.

  For a matrix `x` of shape [a, n] and a matrix `k` of shape [n, b] the max-plus product has the entry
  `(p, q)` equal to the maximum over `i < n` of `x (p, i) - k (i, q)`, the maximum started from a value `z`
  (the programs start it from minus infinity, the least extended real; nothing here needs to know that).
  The layer's output is that entry joined, by `max`, with the bias entry `q`.

  A maximum over `c * n` consecutive terms can be taken chunk by chunk: start a running value at `z`, and for
  each chunk of `n` terms join the running value with the chunk's own maximum (itself started from `z`).
  `max` is associative, commutative and idempotent, so the running value after `c` chunks is the maximum of `z`
  and the first `c * n` terms (`chunkMax_eq_fold`). The proof compares upper bounds: both sides lie below `u`
  exactly when `z` and every term do. No finiteness is needed: the order of the extended reals is total.
-/
import Idealize.ShloMosaic.PureOps.Ideal
import Idealize.ShloMosaic.Lib.ValueIdx

noncomputable section

namespace Cert.MaxPlus

open Idealize.ShloMosaic Idealize.ShloMosaic.ValueIdx

section Order

variable {α : Type} [LinearOrder α]

/-- The running maximum after the first `c` chunks of `n` consecutive terms of `f`: it starts at `z`, and chunk
    `c` joins it with the maximum, from `z`, of the terms `c * n`, …, `c * n + n - 1`. -/
def chunkMax (z : α) (f : ℕ → α) (n : ℕ) : ℕ → α
  | 0 => z
  | c + 1 => max (chunkMax z f n c) ((Finset.univ : Finset (Fin n)).fold max z fun j => f (c * n + j.val))

/-- The upper bounds of the running maximum after `c` chunks are the upper bounds of `z` and of the first
    `c * n` terms. -/
theorem chunkMax_le_iff (z : α) (f : ℕ → α) (n c : ℕ) (u : α) :
    chunkMax z f n c ≤ u ↔ z ≤ u ∧ ∀ i, i < c * n → f i ≤ u := by
  induction c with
  | zero =>
    constructor
    · intro h; exact ⟨h, fun i hi => absurd hi (by omega)⟩
    · intro h; exact h.1
  | succ c ih =>
    rw [chunkMax, max_le_iff, ih, Finset.fold_max_le]
    constructor
    · rintro ⟨⟨hz, hlo⟩, -, hhi⟩
      refine ⟨hz, fun i hi => ?_⟩
      by_cases h : i < c * n
      · exact hlo i h
      · have hin : i - c * n < n := by rw [Nat.succ_mul] at hi; omega
        have e : i = c * n + (⟨i - c * n, hin⟩ : Fin n).val := by show i = c * n + (i - c * n); omega
        rw [e]; exact hhi ⟨i - c * n, hin⟩ (Finset.mem_univ _)
    · rintro ⟨hz, h⟩
      refine ⟨⟨hz, fun i hi => h i (by rw [Nat.succ_mul]; omega)⟩, hz, fun j _ => h _ ?_⟩
      rw [Nat.succ_mul]; have := j.isLt; omega

/-- Taken chunk by chunk, the maximum of `c * n` terms is the maximum of all of them at once. -/
theorem chunkMax_eq_fold (z : α) (f : ℕ → α) (n c N : ℕ) (hN : N = c * n) :
    chunkMax z f n c = (Finset.univ : Finset (Fin N)).fold max z fun i => f i.val := by
  subst hN
  refine eq_of_forall_ge_iff fun u => ?_
  rw [chunkMax_le_iff, Finset.fold_max_le]
  constructor
  · rintro ⟨hz, h⟩; exact ⟨hz, fun i _ => h i.val i.isLt⟩
  · rintro ⟨hz, h⟩; exact ⟨hz, fun i hi => h ⟨i, hi⟩ (Finset.mem_univ _)⟩

end Order

/-- The value the programs start their maxima from: the float word of minus infinity, read on the extended reals
    (it is their least element; no proof here needs that). -/
abbrev start : EReal := Ideal.ofBits .f32 0xFF800000#32

/-- Entry `(p, q)` of the max-plus product of `x : [a, n]` and `k : [n, b]`, the maximum started from `z`. -/
def product {a n b : ℕ} (z : EReal) (x : (⟨2, ![a, n]⟩ : Shape).Idx → EReal) (k : (⟨2, ![n, b]⟩ : Shape).Idx → EReal)
    (p : Fin a) (q : Fin b) : EReal :=
  (Finset.univ : Finset (Fin n)).fold max z fun i => x (ix2 p i) - k (ix2 i q)

/-- Term `i` of entry `(p, q)`, as a sequence on the naturals (the value past the last term is never read). -/
def term {a n b : ℕ} (z : EReal) (x : (⟨2, ![a, n]⟩ : Shape).Idx → EReal) (k : (⟨2, ![n, b]⟩ : Shape).Idx → EReal)
    (p : Fin a) (q : Fin b) (i : ℕ) : EReal :=
  if h : i < n then x (ix2 p ⟨i, h⟩) - k (ix2 ⟨i, h⟩ q) else z

theorem term_of_lt {a n b : ℕ} (z : EReal) (x : (⟨2, ![a, n]⟩ : Shape).Idx → EReal) (k : (⟨2, ![n, b]⟩ : Shape).Idx → EReal)
    (p : Fin a) (q : Fin b) (i : ℕ) (h : i < n) : term z x k p q i = x (ix2 p ⟨i, h⟩) - k (ix2 ⟨i, h⟩ q) :=
  dif_pos h

/-- The entry of the product taken in `c` chunks of `m` terms. -/
theorem product_eq_chunkMax {a n b : ℕ} (z : EReal) (x : (⟨2, ![a, n]⟩ : Shape).Idx → EReal)
    (k : (⟨2, ![n, b]⟩ : Shape).Idx → EReal) (p : Fin a) (q : Fin b) (m c : ℕ) (hn : n = c * m) :
    chunkMax z (term z x k p q) m c = product z x k p q := by
  rw [chunkMax_eq_fold z _ m c n hn]
  unfold product
  exact congrArg (fun f => (Finset.univ : Finset (Fin n)).fold max z f) (funext fun i => term_of_lt z x k p q i.val i.isLt)

/-- The layer: the product's entry joined with the bias entry. The bias is a one-row array `[1, b]`. -/
def layerRow {a n b : ℕ} (z : EReal) (x : (⟨2, ![a, n]⟩ : Shape).Idx → EReal) (k : (⟨2, ![n, b]⟩ : Shape).Idx → EReal)
    (bias : (⟨2, ![1, b]⟩ : Shape).Idx → EReal) (p : Fin a) (q : Fin b) : EReal :=
  max (product z x k p q) (bias (ix2 0 q))

/-- The layer with the bias a vector `[b]`. -/
def layer {a n b : ℕ} (z : EReal) (x : (⟨2, ![a, n]⟩ : Shape).Idx → EReal) (k : (⟨2, ![n, b]⟩ : Shape).Idx → EReal)
    (bias : (⟨1, ![b]⟩ : Shape).Idx → EReal) (p : Fin a) (q : Fin b) : EReal :=
  max (product z x k p q) (bias (ix1 q))

/-- The whole output: for `x : [256, 1024]`, `k : [1024, 1024]` and `bias : [1024]`, at every index of `[256, 1024]` the
    layer's value at the index's two coordinates, the maxima started from minus infinity. -/
def layerArray (x : (⟨2, ![256, 1024]⟩ : Shape).Idx → EReal) (k : (⟨2, ![1024, 1024]⟩ : Shape).Idx → EReal)
    (bias : (⟨1, ![1024]⟩ : Shape).Idx → EReal) : (⟨2, ![256, 1024]⟩ : Shape).Idx → EReal :=
  fun j => layer start x k bias (j 0) (j 1)

theorem layerArray_apply (x : (⟨2, ![256, 1024]⟩ : Shape).Idx → EReal) (k : (⟨2, ![1024, 1024]⟩ : Shape).Idx → EReal)
    (bias : (⟨1, ![1024]⟩ : Shape).Idx → EReal) (p : Fin 256) (q : Fin 1024) :
    layerArray x k bias (ix2 p q) = layer start x k bias p q := rfl

end Cert.MaxPlus

end
-- ==== Proof.LibIndexReads.lean ====
/-
  Three general readings at an index, at the ideal values or at any values.

  * a matrix product into a zero accumulator whose dimension numbers contract ONE axis of extent `n`
    is, at an output index, the sum over `k : Fin n` of the left operand at `L k` times the right at `R k`,
    for whatever index maps `L`, `R` the caller shows the dimension numbers to induce;
  * an `[a, b]` array viewed as `[a, b, 1]` (a reduction's kept last axis), read at `(p, q, u)`, is entry `(p, q)`;
  * an `[a, b, 1]` array broadcast to `[a, b, c]`, read at `(p, q, r)`, is entry `(p, q, 0)`.
-/
import Idealize.ShloMosaic.PureOps.Ideal.Laws
import Idealize.ShloMosaic.Lib.ValueIdx
import Idealize.ShloMosaic.Lib.Pipeline.Value

noncomputable section

namespace Cert.IndexReads

open Idealize.ShloMosaic Idealize.ShloMosaic.ValueIdx

/-- A matrix product into the zero accumulator, contracting one axis of extent `n`, read at an output
    index `j`: the sum over that axis of the operands' products, the operands read where the dimension
    numbers say (`hL`, `hR`). -/
theorem matmul_zero_single {sl sr so : Shape} {φ₁ φ₂ : FTy} (d : DotDims sl sr so) (n : Nat) (hr : d.contr.rank = 1)
    (hs : d.contr.size ⟨0, by omega⟩ = n) (prec : Option ContractPrecision)
    (lhs : FVec Ideal sl φ₁) (rhs : FVec Ideal sr φ₂) (j : so.Idx) (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    FloatOps.matmul d prec lhs rhs (constant so .f32 0x00000000#32) j = ∑ k : Fin n, lhs (L k) * rhs (R k) := by
  rw [Ideal.matmul_constant_zero_apply, ← Equiv.sum_comp (contrEquiv1 d n hr hs).symm]
  exact Finset.sum_congr rfl fun k _ => by rw [hL k, hR k]

variable {α : Type}

/-- An `[a, b]` array viewed `[a, b, 1]`, at `(p, q, u)`, is entry `(p, q)`: the two indices have one row-major position. -/
theorem keepLast_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- An `[a, b, 1]` array broadcast to `[a, b, c]`, at `(p, q, r)`, is entry `(p, q, 0)`. -/
theorem spreadLast_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q 0) := by
  refine broadcastTo_apply v h (ix3 p q r) (ix3 p q 0) fun i => ?_
  match i with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ => rfl

end Cert.IndexReads

end
-- ==== Proof.LibMiddleUnitAxis.lean ====
/-
  Layout operations on rank-3 arrays with a unit MIDDLE axis, read at an index written by coordinates.
  An `[a, 1, b]` array is an `[a, b]` matrix with a unit axis inserted; pairing the rows of an `[a, b]` matrix with the
  rows of a `[c, b]` matrix coordinate by coordinate goes through `[a, 1, b]` and `[1, c, b]`, both stretched to
  `[a, c, b]`. Each lemma here reads one such step at `(p, q, d)`; all are generic in the extents.
-/
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(p, q, d)`, the operand at `(p, 0, d)`: every
    middle coordinate sees the same row. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (d : Fin b) :
    broadcastTo ⟨3, ![a, c, b]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if b = 1 then 0 else d.val
    split
    · have := d.isLt; omega
    · rfl

/-- A `[1, c, b]` array broadcast to `[a, c, b]` reads, at `(p, q, d)`, the operand at `(0, q, d)`: every leading
    coordinate sees the same matrix. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (d : Fin b) :
    broadcastTo ⟨3, ![a, c, b]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

/-- Row `k` of the middle axis of an `[a, n, b]` array, kept as `[a, 1, b]` and cast to `[a, b]`, reads at `(i, j)`
    the array at `(i, k, j)`. -/
theorem middleRow_apply {a n b : ℕ} (o : ℕ) (x : (⟨3, ![a, n, b]⟩ : Shape).Idx → α)
    (hs : (⟨3, ![a, n, b]⟩ : Shape).Slices ![0, o, 0] ⟨3, ![a, 1, b]⟩)
    (hc : (⟨3, ![a, 1, b]⟩ : Shape).ShapeCasts ⟨2, ![a, b]⟩) (k : Fin n) (hk : k.val = o) (i : Fin a) (j : Fin b) :
    shapeCast ⟨2, ![a, b]⟩ (extractStridedSlice ⟨3, ![a, 1, b]⟩ ![0, o, 0] x hs) hc (ix2 i j) = x (ix3 i k j) :=
  (shapeCast_a1b_ab_apply _ hc i j).trans
    (slice3_axis1_apply o x hs i (0 : Fin 1) j k (by rw [hk]; rfl))

end Idealize.ShloMosaic.ValueIdx
-- ==== Proof.LibMiddleAxisMax.lean ====
/-
  A maximum over the MIDDLE axis of a rank-three array, read at an index given by coordinates.

  At the ideal values a `vector.multi_reduction <maximumf>` over axis 1 of an `[l, m, n]` array, read at `(b, c)`, is
  the fold of `max`, from the accumulator's value, over `k : Fin m` of the entries `(b, k, c)`: on the extended reals a
  maximum has no order of evaluation left in it, and the reduced index with the coordinate `k` put back on the middle
  axis is `(b, k, c)`. Generic in the three extents and in the float format; library imports only.
-/
import Idealize.ShloMosaic.Lib.Pipeline.Value
import Idealize.ShloMosaic.Lib.ValueIdx
import Idealize.ShloMosaic.PureOps.Ideal.Laws

namespace Cert.MiddleAxisMax

open Idealize.ShloMosaic Idealize.ShloMosaic.ValueIdx

/-- In a rank-three array, `(b, c)` with the middle coordinate `k` put back is `(b, k, c)`. -/
theorem lift_middle {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- A maximum over the middle axis of an `[l, m, n]` array of extended reals, read at `(b, c)`: the fold of `max`, from
    the accumulator's value, over the entries `(b, k, c)`. -/
theorem multiReduction_maximumf_middle {l m n : ℕ} {φ : FTy} (src : FVec Ideal ⟨3, ![l, m, n]⟩ φ) (acc : BitVec φ.bits)
    (h : (⟨3, ![l, m, n]⟩ : Shape).Reduces [1] (⟨2, ![l, n]⟩ : Shape)) (hφ : FKind.Formats φ)
    (hacc : acc = FKind.maximumf.neutral φ hφ) (b : Fin l) (c : Fin n) :
    multiReduction .maximumf [1] ⟨2, ![l, n]⟩ src acc h hφ hacc (ix2 b c)
      = (Finset.univ : Finset (Fin m)).fold max (Ideal.ofBits φ acc) (fun k => src (ix3 b k c)) :=
  (Ideal.multiReduction_maximumf_single src acc h hφ hacc (ix2 b c)).trans
    (congrArg (fun f => (Finset.univ : Finset (Fin m)).fold max (Ideal.ofBits φ acc) f)
      (funext fun k => congrArg src (lift_middle h b c k)))

end Cert.MiddleAxisMax
-- ==== Proof.BodyReads.lean ====
/-
  The kernel body's three values, read at an entry of the block, on the extended reals.

  The body keeps a running block `acc` of shape [128, 128]. It starts at minus infinity everywhere. One trip of the
  loop takes a [128, 128] piece `u` of the block of `x` and a [128, 128] piece `v` of the block of `k`, forms the
  three-axis array `u (p, j) - v (j, q)` (the piece of `x` given a unit last axis and repeated along it, the piece of
  `k` given a unit first axis and repeated along it), takes its maximum over the middle axis `j` from minus
  infinity, and joins the running block with it. After the loop the running block is joined with the bias row
  repeated down the rows. Each lemma below says what one of these values holds at entry `(p, q)`.
-/
import proofs.«179528_j10393820857004_2_alg».proof.Proof.Gen.KernelIdeal.Skeleton
import proofs.«179528_j10393820857004_2_alg».proof.Proof.Spec
import proofs.«179528_j10393820857004_2_alg».proof.Proof.LibIndexReads
import proofs.«179528_j10393820857004_2_alg».proof.Proof.LibMiddleUnitAxis
import proofs.«179528_j10393820857004_2_alg».proof.Proof.LibMiddleAxisMax
import Idealize.ShloMosaic.Lib.ValueLayout

noncomputable section

namespace Cert.MaxPlus

open Cert.KernelIdeal Cert.KernelIdeal.Gen Idealize.ShloMosaic Idealize.ShloMosaic.ValueIdx

/-- The running block starts at minus infinity at every entry. -/
theorem initial_apply (p q : Fin 128) : k0_pay1 (F := Ideal) (ix2 p q) = start := rfl

/-- One trip: the running entry joined with the maximum over `j` of `u (p, j) - v (j, q)`. -/
theorem trip_apply (acc : FVec Ideal S128x128 .f32) (u v : Vec Ideal S128x128 .f32) (p q : Fin 128) :
    k0_pay2 (F := Ideal) acc u v (ix2 p q)
      = max (acc (ix2 p q)) ((Finset.univ : Finset (Fin 128)).fold max start fun j => u (ix2 p j) - v (ix2 j q)) := by
  unfold k0_pay2
  refine congrArg (max (acc (ix2 p q))) ?_
  refine (Cert.MiddleAxisMax.multiReduction_maximumf_middle _ _ _ _ _ p q).trans ?_
  refine congrArg (fun f => (Finset.univ : Finset (Fin 128)).fold max start f) (funext fun j => ?_)
  refine (subf_apply _ _ _).trans ?_
  refine congrArg₂ (fun s t : EReal => s - t) ?_ ?_
  · exact (Cert.IndexReads.spreadLast_apply _ _ p j q).trans (Cert.IndexReads.keepLast_apply _ _ p j 0)
  · exact (broadcastTo_1cb_acb_apply _ _ p j q).trans (shapeCast_ab_1ab_apply _ _ 0 j q)

/-- After the loop: the running entry joined with the bias row's entry `q`. -/
theorem final_apply (acc : FVec Ideal S128x128 .f32) (w : Vec Ideal S1x128 .f32) (p q : Fin 128) :
    k0_pay3 (F := Ideal) acc w (ix2 p q) = max (acc (ix2 p q)) (w (ix2 0 q)) := by
  unfold k0_pay3
  refine congrArg (max (acc (ix2 p q))) ?_
  refine (broadcastTo_1b_ab_apply _ _ p q).trans ?_
  exact congrFun (shapeCast_self _ _) _

end Cert.MaxPlus

end
-- ==== Proof.LoopValue.lean ====
/-
  What one grid point leaves in its output block.

  At a grid point the body sees a block `x0` of `x` of shape [128, 1024] (128 rows, all 1024 columns), a block
  `x1` of `k` of shape [1024, 128] (all rows, 128 columns) and a block `x2` of the bias row of shape [1, 128].
  The loop makes eight trips. Trip `t` reads columns `128 t … 128 t + 127` of `x0` and rows `128 t … 128 t + 127` of
  `x1` and joins the running block with the maximum over those 128 positions `j` of `x0 (p, j) - x1 (j, q)`; so
  after `n` trips the running entry `(p, q)` is the maximum, taken chunk by chunk, over the first `128 n`
  positions, and after the eighth it is the max-plus entry over all 1024. Joined with the bias entry, that is the
  layer's value on the block: `block_apply`.

  The frame run states the block through the pieces the body's stores leave and through the loop's carried value as
  a recursion over the trips; `trip_yield` and `block_eq` read those two once, for any float values, and every
  later step cites them.
-/
import proofs.«179528_j10393820857004_2_alg».proof.Proof.Gen.KernelIdeal.Frame
import proofs.«179528_j10393820857004_2_alg».proof.Proof.BodyReads
import proofs.«179528_j10393820857004_2_alg».proof.Proof.Spec
import Idealize.ShloMosaic.Lib.WholeRead

set_option maxRecDepth 16384

noncomputable section

namespace Cert.MaxPlus

open Cert.KernelIdeal Cert.KernelIdeal.Gen Idealize.ShloMosaic Idealize.ShloMosaic.TcCoe Idealize.SL.Sem
open Idealize.ShloMosaic.Tactic Idealize.ShloMosaic.ValueIdx

theorem zero_offsets : (![0, 0] : Fin 2 → Nat) = fun _ => 0 := funext fun a => by fin_cases a <;> rfl

/-- The loop makes eight trips. -/
theorem trips_eq : k0_t1_loop.trips = 8 := by decide +kernel

section AnyValues

variable {F : FTy → Type} [FloatOps F]

/-- What trip `k` yields from the carried block `acc`: the trip's value of `acc` and of the two pieces it loads, the
    piece of the first buffer at the trip's column offset and the piece of the second at its row offset. -/
theorem trip_yield (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S128x128 .f32) (harg5 : arg5.IsWhole)
    (X2 : BufTy.Contents (Elt F) arg2.view.ty) (X3 : BufTy.Contents (Elt F) arg3.view.ty) (k : Fin k0_t1_loop.trips)
    (acc : FVec F S128x128 .f32) :
    tripR_k0_t1 (F := F) Variants.none c none i arg2 harg2 arg3 harg3 arg4 harg4 arg5 harg5 X2 X3 k acc
      = k0_pay2 acc
          (View.readAt (Elt F) arg2.view (Rect.unit (s := S128x1024) (k0_off1 k) S128x128.size (k0_off1_inb k)).toLoadRect X2)
          (View.readAt (Elt F) arg3.view (Rect.unit (s := S1024x128) (k0_off2 k) S128x128.size (k0_off2_inb k)).toLoadRect X3) := by
  unfold tripR_k0_t1 trip_k0_t1
  rfl

/-- The block a grid point leaves: the body's last value, of the loop's carried block after all its trips (started at
    the body's initial block, the two input buffers holding `x0` and `x1`) and of the bias block `x2`. -/
theorem block_eq (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S128x128 .f32) (harg5 : arg5.IsWhole)
    (x0 : Vec F S128x1024 .f32) (x1 : Vec F S1024x128 .f32) (x2 : Vec F S1x128 .f32) :
    out0_A_3 c i arg2 harg2 arg3 harg3 arg4 harg4 arg5 harg5 x0 x1 x2
      = k0_pay3 (st_k0_t1 (F := F) Variants.none c none i arg2 harg2 arg3 harg3 arg4 harg4 arg5 harg5 (harg2.unread x0) (harg3.unread x1)
          k0_pay1 k0_t1_loop.trips) x2 := by
  unfold out0_A_3
  rw [View.read_writes_eq_canon _ _ _ (cover0_A_3 c i arg2 harg2 arg3 harg3 arg4 harg4 arg5 harg5 x0 x1 x2)]
  unfold kernelRun0_A
  dsimp only
  rw [View.canon_unit_zero zero_offsets]
  simp only [View.readAt_eq_ld, harg4.read_unread, View.ld_unit_zero (S := S1x128) zero_offsets]

end AnyValues

/-- The carried entry `(p, q)` before trip `n`, on the extended reals: the maximum, chunk by chunk, over the first
    `128 n` positions. -/
theorem carried_apply (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S128x128 .f32) (harg5 : arg5.IsWhole)
    (x0 : Vec Ideal S128x1024 .f32) (x1 : Vec Ideal S1024x128 .f32) (p q : Fin 128) (n : ℕ) (hn : n ≤ 8) :
    st_k0_t1 (F := Ideal) Variants.none c none i arg2 harg2 arg3 harg3 arg4 harg4 arg5 harg5 (harg2.unread x0) (harg3.unread x1) k0_pay1 n (ix2 p q)
      = chunkMax start (term start x0 x1 p q) 128 n := by
  induction n with
  | zero => rfl
  | succ n ih =>
    have hlt : n < k0_t1_loop.trips := by rw [trips_eq]; omega
    refine (congrFun (st_k0_t1_succ (F := Ideal) Variants.none c none i arg2 harg2 arg3 harg3 arg4 harg4 arg5 harg5 (harg2.unread x0) (harg3.unread x1)
      k0_pay1 ⟨n, hlt⟩) (ix2 p q)).trans ?_
    refine (congrFun (trip_yield (F := Ideal) c i arg2 harg2 arg3 harg3 arg4 harg4 arg5 harg5 (harg2.unread x0) (harg3.unread x1) ⟨n, hlt⟩ _) (ix2 p q)).trans ?_
    refine (trip_apply _ _ _ p q).trans ?_
    show max _ _ = max (chunkMax start (term start x0 x1 p q) 128 n)
      ((Finset.univ : Finset (Fin 128)).fold max start fun j => term start x0 x1 p q (n * 128 + j.val))
    refine congrArg₂ max (ih (by omega)) ?_
    refine congrArg (fun f => (Finset.univ : Finset (Fin 128)).fold max start f) (funext fun j => ?_)
    have hj : n * 128 + j.val < 1024 := by have := j.isLt; omega
    refine (congrArg₂ (fun s t : EReal => s - t)
      ((harg2.readAt_unread x0 (Rect.unit (s := S128x1024) (k0_off1 ⟨n, hlt⟩) S128x128.size (k0_off1_inb ⟨n, hlt⟩)).toLoadRect (ix2 p j)).trans (congrArg x0 ?_))
      ((harg3.readAt_unread x1 (Rect.unit (s := S1024x128) (k0_off2 ⟨n, hlt⟩) S128x128.size (k0_off2_inb ⟨n, hlt⟩)).toLoadRect (ix2 j q)).trans (congrArg x1 ?_))).trans
      (term_of_lt start x0 x1 p q (n * 128 + j.val) hj).symm
    · funext a; apply Fin.ext
      match a with
      | ⟨0, _⟩ =>
        show k0_off1 ⟨n, hlt⟩ 0 + 1 * p.val = p.val
        rw [k0_off1_eq]; show 0 + 1 * p.val = p.val; omega
      | ⟨1, _⟩ =>
        show k0_off1 ⟨n, hlt⟩ 1 + 1 * j.val = n * 128 + j.val
        rw [k0_off1_eq]; show 128 * n + 1 * j.val = n * 128 + j.val; omega
    · funext a; apply Fin.ext
      match a with
      | ⟨0, _⟩ =>
        show k0_off2 ⟨n, hlt⟩ 0 + 1 * j.val = n * 128 + j.val
        rw [k0_off2_eq]; show 128 * n + 1 * j.val = n * 128 + j.val; omega
      | ⟨1, _⟩ =>
        show k0_off2 ⟨n, hlt⟩ 1 + 1 * q.val = q.val
        rw [k0_off2_eq]; show 0 + 1 * q.val = q.val; omega

/-- The block a grid point leaves, at entry `(p, q)`: the layer's value on the point's three input blocks. -/
theorem block_apply (c : Dev nD) (i : grid0.Coords) (arg2 : Memref sig .tc .vmem S128x1024 .f32) (harg2 : arg2.IsWhole) (arg3 : Memref sig .tc .vmem S1024x128 .f32) (harg3 : arg3.IsWhole) (arg4 : Memref sig .tc .vmem S1x128 .f32) (harg4 : arg4.IsWhole) (arg5 : Memref sig .tc .vmem S128x128 .f32) (harg5 : arg5.IsWhole)
    (x0 : Vec Ideal S128x1024 .f32) (x1 : Vec Ideal S1024x128 .f32) (x2 : Vec Ideal S1x128 .f32) (p q : Fin 128) :
    out0_A_3 (F := Ideal) c i arg2 harg2 arg3 harg3 arg4 harg4 arg5 harg5 x0 x1 x2 (ix2 p q) = layerRow start x0 x1 x2 p q := by
  refine (congrFun (block_eq (F := Ideal) c i arg2 harg2 arg3 harg3 arg4 harg4 arg5 harg5 x0 x1 x2) (ix2 p q)).trans ?_
  refine (final_apply _ _ p q).trans ?_
  unfold layerRow
  refine congrArg (fun s : EReal => max s (x2 (ix2 0 q))) ?_
  refine (carried_apply c i arg2 harg2 arg3 harg3 arg4 harg4 arg5 harg5 x0 x1 p q k0_t1_loop.trips (le_of_eq trips_eq)).trans ?_
  refine (congrArg (chunkMax start (term start x0 x1 p q) 128) trips_eq).trans ?_
  exact product_eq_chunkMax start x0 x1 p q 128 8 rfl

end Cert.MaxPlus

end
-- ==== Proof.KernelValue.lean ====
/-
  The kernel's output array is the layer.

  The grid has 2 × 8 points; point `(a, b)` works on rows `128 a … 128 a + 127` of `x` (all columns), on columns
  `128 b … 128 b + 127` of `k` (all rows) and of the bias row, and writes back the [128, 128] block of the output at
  block position `(a, b)`. Before the region the bias vector is laid out as a one-row array. So an entry of a
  point's input blocks is an entry of `x`, `k` or the bias at the block's offset, the point's output block
  (`block_apply`) is the layer's value at the block's indices of the whole array, and the sixteen blocks tile the
  array: after the run the output array is the layer of the argument arrays at every index.
-/
import proofs.«179528_j10393820857004_2_alg».proof.Proof.Gen.KernelIdeal.Value
import proofs.«179528_j10393820857004_2_alg».proof.Proof.LoopValue
import Idealize.ShloMosaic.Lib.StableHlo.Run
import Idealize.ShloMosaic.Lib.ValueLayout

set_option maxRecDepth 16384

noncomputable section

namespace Cert.MaxPlus

open Cert.KernelIdeal Cert.KernelIdeal.Gen Cert.KernelIdeal.Value Idealize.ShloMosaic Idealize.ShloMosaic.TcCoe Idealize.SL.Sem
open Idealize.ShloMosaic.Tactic Idealize.ShloMosaic.StableHlo Idealize.ShloMosaic.ValueIdx
open Idealize.ShloMosaic.Pipeline (Dat)

variable (m : (ℓ : Loc nD τ sig) → Buf (Elt Ideal) ℓ) (ρ : Dev nD → PrngReg)

/-- The bias as the region finds it: the bias vector laid out as a one-row array. -/
theorem bias_row (c : Dev nD) :
    (V m c main_v0 : S1x1024.Idx → EReal)
      = shapeCast S1x1024 (m ((c : Thread nD τ).loc main_arg2)) Facts₀.shapeCasts_S1024_S1x1024 := by
  dsimp only [Gen.V, Gen.hostOps0]
  after_results
  rfl

/-- Where the four windows' blocks sit at a grid point: the block of `x` shares the output block's row position and
    spans all columns, the blocks of `k` and of the bias row share its column position and start at row 0; the output's
    block positions stay inside 2 × 8. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 1 ∧ win0_3.index t (1 : Fin 2) ≤ 7 :=
  (by decide +kernel : ∀ t : Fin grid0.N, _)

/-- Every block position of the 2 × 8 tiling is some point's. -/
theorem index_onto : ∀ (q0 : Fin 2) (q1 : Fin 8), ∃ t : Fin cfg0.N, win0_3.index t = ![q0.val, q1.val] :=
  (by decide +kernel : ∀ (q0 : Fin 2) (q1 : Fin 8), ∃ t : Fin grid0.N, win0_3.index t = ![q0.val, q1.val])

/-- An entry of a point's block of `x` is the entry of `x` at the block's place in the array. -/
theorem xblock_apply (c : Dev nD) (t : Fin cfg0.N) (y : S128x1024.Idx) :
    iblk m c 0 t y = (m ((c : Thread nD τ).loc main_arg0)) (((cfg0.win 0).blk t).view.emb y) := by
  show V m c main_arg0 (((cfg0.win 0).blk t).view.emb y) = _
  rw [V_main_arg0]

/-- An entry of a point's block of `k` is the entry of `k` at the block's place in the array. -/
theorem kblock_apply (c : Dev nD) (t : Fin cfg0.N) (y : S1024x128.Idx) :
    iblk m c 1 t y = (m ((c : Thread nD τ).loc main_arg1)) (((cfg0.win 1).blk t).view.emb y) := by
  show V m c main_arg1 (((cfg0.win 1).blk t).view.emb y) = _
  rw [V_main_arg1]

/-- An entry of a point's block of the bias row is the entry of the row at the block's place. -/
theorem bblock_apply (c : Dev nD) (t : Fin cfg0.N) (y : S1x128.Idx) :
    iblk m c 2 t y = shapeCast S1x1024 (m ((c : Thread nD τ).loc main_arg2)) Facts₀.shapeCasts_S1024_S1x1024 (((cfg0.win 2).blk t).view.emb y) := by
  show V m c main_v0 (((cfg0.win 2).blk t).view.emb y) = _
  rw [bias_row]

/-- The output block of point `t` at entry `(p, q)` is the layer of the argument arrays at the block's index. -/
theorem point_entry (c : Dev nD) (t : Fin cfg0.N) (p q : Fin 128) :
    out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (ix2 p q)
      = layerArray (m ((c : Thread nD τ).loc main_arg0)) (m ((c : Thread nD τ).loc main_arg1)) (m ((c : Thread nD τ).loc main_arg2)) (((cfg0.win 3).blk t).view.emb (ix2 p q)) := by
  refine (block_apply c (grid0.coords t) (ms0_0 t) (hs0_0 t) (ms0_1 t) (hs0_1 t) (ms0_2 t) (hs0_2 t) (ms0_3 t) (hs0_3 t) (iblk m c 0 t) (iblk m c 1 t) (iblk m c 2 t) p q).trans ?_
  obtain ⟨e0, e1, e2, e3, e4, e5, -, -⟩ := index_facts t
  simp only [layerRow, layerArray, layer, product]
  refine congrArg₂ (fun s t : EReal => max s t) ?_ ?_
  · refine congrArg (fun f => (Finset.univ : Finset (Fin 1024)).fold max start f) (funext fun i => ?_)
    refine congrArg₂ (fun s t : EReal => s - t) ?_ ?_
    · refine (xblock_apply m c t (ix2 p i)).trans (congrArg _ ?_)
      funext a; apply Fin.ext
      match a with
      | ⟨0, _⟩ =>
        show win0_0.index t (0 : Fin 2) * 128 + 1 * p.val = win0_3.index t (0 : Fin 2) * 128 + 1 * p.val
        omega
      | ⟨1, _⟩ =>
        show win0_0.index t (1 : Fin 2) * 1024 + 1 * i.val = i.val
        omega
    · refine (kblock_apply m c t (ix2 i q)).trans (congrArg _ ?_)
      funext a; apply Fin.ext
      match a with
      | ⟨0, _⟩ =>
        show win0_1.index t (0 : Fin 2) * 1024 + 1 * i.val = i.val
        omega
      | ⟨1, _⟩ =>
        show win0_1.index t (1 : Fin 2) * 128 + 1 * q.val = win0_3.index t (1 : Fin 2) * 128 + 1 * q.val
        omega
  · refine (bblock_apply m c t (ix2 0 q)).trans ?_
    refine shapeCast_apply _ _ _ _ ?_
    refine (Shape.rowMajor_val_one (d := ![1024]) _).trans
      (Eq.trans ?_ (Shape.rowMajor_val_two (d := ![1, 1024]) _).symm)
    show win0_3.index t (1 : Fin 2) * 128 + 1 * q.val
      = (win0_2.index t (0 : Fin 2) * 1 + 1 * 0) * 1024 + (win0_2.index t (1 : Fin 2) * 128 + 1 * q.val)
    omega

/-- The same at any entry of the block. -/
theorem point_block (c : Dev nD) (t : Fin cfg0.N) (j : S128x128.Idx) :
    out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) j
      = layerArray (m ((c : Thread nD τ).loc main_arg0)) (m ((c : Thread nD τ).loc main_arg1)) (m ((c : Thread nD τ).loc main_arg2)) (((cfg0.win 3).blk t).view.emb j) := by
  obtain ⟨p, q, rfl⟩ : ∃ (p q : Fin 128), j = ix2 p q := ⟨j 0, j 1, eq_ix2 j⟩
  exact point_entry m c t p q

/-- What point `t` writes back is block `t` of the layer of the argument arrays. -/
theorem flushed_eq (c : Dev nD) (t : Fin cfg0.N) :
    (dats m 0 c).flushed 3 t
      = ((cfg0.win 3).blk t).view.read (Elt Ideal) (layerArray (m ((c : Thread nD τ).loc main_arg0)) (m ((c : Thread nD τ).loc main_arg1)) (m ((c : Thread nD τ).loc main_arg2))) := by
  rw [flushed3_A]
  funext j
  exact point_block m c t j

/-- An index of the output array is in point `t`'s block iff each coordinate is in the block's range on its axis. -/
theorem mem_block (t : Fin cfg0.N) (i : S256x1024.Idx) :
    i ∈ ((cfg0.win 3).blk t).view.set ↔ ∀ a : Fin 2, win0_3.index t a * S128x128.size a ≤ (i a).val
      ∧ (i a).val < win0_3.index t a * S128x128.size a + S128x128.size a := by
  show i ∈ ((View.whole main_v1).slice (win0_3.rect t)).set ↔ _
  rw [View.set_slice_whole, Rect.mem_set_unit]
  exact Iff.rfl

/-- The sixteen blocks tile the output array: index `(r, s)` is in the block at position `(r / 128, s / 128)`. -/
theorem covered (i : S256x1024.Idx) :
    ∃ t : Fin cfg0.N, (cfg0.win 3).flush t = true ∧ i ∈ ((cfg0.win 3).blk t).view.set := by
  have hi0 : (i 0).val < 256 := (i 0).isLt
  have hi1 : (i 1).val < 1024 := (i 1).isLt
  obtain ⟨t, ht⟩ := index_onto ⟨(i 0).val / 128, by omega⟩ ⟨(i 1).val / 128, by omega⟩
  have q0 : win0_3.index t (0 : Fin 2) = (i 0).val / 128 := congrFun ht 0
  have q1 : win0_3.index t (1 : Fin 2) = (i 1).val / 128 := congrFun ht 1
  refine ⟨t, flush0_3 t, ?_⟩
  rw [mem_block]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 128 ≤ (i 1).val ∧ (i 1).val < win0_3.index t (1 : Fin 2) * 128 + 128
    omega

/-- After the run the output array is the layer of the argument arrays. -/
theorem final (c : Dev nD) :
    (dats m 0 c).arrAt 3 cfg0.N = layerArray (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the output array at the layer of the argument arrays, the arguments unchanged. -/
theorem run : θ_run defs (onTc (τ := τ) (main (F := Ideal))) ⟨m, fun _ => 0, ρ⟩ fun r => ∀ c : Dev nD,
      r.2.mem ((c : Thread nD τ).loc main_v1) = layerArray (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.MaxPlus

end
-- ==== Proof.LibColumnReads.lean ====
/-
  Reading a matrix column by column, and blocks with unit axes, at indices given by coordinates.

  The companions, along the FIRST axis, of the row forms: a reduction over the rows of an `[m, n]` array, read at
  column `c`, is the sum (or the fold of `max`) over `k : Fin m` of the entries `(k, c)`; the same readings for a
  reduction over the last or the middle axis of a rank-three array on the host side (the index with the coordinate put
  back); and two casts that drop the leading unit axis of a block: `[1, a, 1]` to the column `[a, 1]`, `[1, 1, b]` to
  the row `[1, b]`. The sums and folds hold on the extended reals, where a reduction has no order left in it.
-/
import Idealize.ShloMosaic.Lib.Pipeline.Value
import Idealize.ShloMosaic.Lib.ValueIdx
import Idealize.ShloMosaic.PureOps.Ideal.Laws

namespace Cert.ColumnReads

open Idealize.ShloMosaic Idealize.ShloMosaic.ValueIdx

variable {α : Type}

/-- Column `c` with the row coordinate `k` put back is the index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext a; apply Fin.ext
  fin_cases a <;> rfl

/-- A sum over the rows of an `[m, n]` array of extended reals, read at column `c`: the sum of that column's entries. -/
theorem multiReduction_add_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ) (hacc : acc = FKind.add.neutral φ hφ)
    (c : Fin n) :
    multiReduction .add [0] ⟨1, ![n]⟩ src acc h hφ hacc (ix1 c) = ∑ k : Fin m, src (ix2 k c) :=
  (Ideal.multiReduction_add_single src acc h hφ hacc (ix1 c)).trans
    (Finset.sum_congr rfl fun k _ => congrArg src (lift_col h c k))

/-- A maximum over the rows of an `[m, n]` array of extended reals, read at column `c`: the fold of `max`, from the
    accumulator's value, over that column's entries. -/
theorem multiReduction_maximumf_col {m n : ℕ} {φ : FTy} (src : FVec Ideal ⟨2, ![m, n]⟩ φ) (acc : BitVec φ.bits)
    (h : (⟨2, ![m, n]⟩ : Shape).Reduces [0] (⟨1, ![n]⟩ : Shape)) (hφ : FKind.Formats φ)
    (hacc : acc = FKind.maximumf.neutral φ hφ) (c : Fin n) :
    multiReduction .maximumf [0] ⟨1, ![n]⟩ src acc h hφ hacc (ix1 c)
      = (Finset.univ : Finset (Fin m)).fold max (Ideal.ofBits φ acc) (fun k => src (ix2 k c)) :=
  (Ideal.multiReduction_maximumf_single src acc h hφ hacc (ix1 c)).trans
    (congrArg (fun f => (Finset.univ : Finset (Fin m)).fold max (Ideal.ofBits φ acc) f)
      (funext fun k => congrArg src (lift_col h c k)))

/-- In a rank-three array, `(b, p)` with the last coordinate `k` put back is `(b, p, k)`. -/
theorem lift_last {l m n : ℕ} (h : (⟨3, ![l, m, n]⟩ : Shape).Reduces [2] (⟨2, ![l, m]⟩ : Shape)) (b : Fin l) (p : Fin m)
    (k : Fin ((⟨3, ![l, m, n]⟩ : Shape).size 2)) : h.lift (ix2 b p) k = ix3 b p (⟨k.val, k.isLt⟩ : Fin n) := by
  funext a; apply Fin.ext
  fin_cases a <;> rfl

/-- In a rank-three array, `(b, c)` with the middle coordinate `k` put back is `(b, k, c)`. -/
theorem lift_mid {l m n : ℕ} (h : (⟨3, ![l, m, n]⟩ : Shape).Reduces [1] (⟨2, ![l, n]⟩ : Shape)) (b : Fin l) (c : Fin n)
    (k : Fin ((⟨3, ![l, m, n]⟩ : Shape).size 1)) : h.lift (ix2 b c) k = ix3 b (⟨k.val, k.isLt⟩ : Fin m) c := by
  funext a; apply Fin.ext
  fin_cases a <;> rfl

/-- The host's maximum over the LAST axis of an `[l, m, n]` array of extended reals, read at `(b, p)`: the fold of
    `max` from the initial value over the entries `(b, p, k)`. -/
theorem hostReduce_maximumf_last {l m n : ℕ} {u : Shape} (x : FVec Ideal ⟨3, ![l, m, n]⟩ .f32) (init : u.Idx → Ideal .f32)
    (h' : (⟨3, ![l, m, n]⟩ : Shape).ReducesTo [2] (⟨2, ![l, m]⟩ : Shape))
    (h : (⟨3, ![l, m, n]⟩ : Shape).Reduces [2] (⟨2, ![l, m]⟩ : Shape)) (hu : 0 < u.numel) (b : Fin l) (p : Fin m) :
    Host.reduce FloatOps.maximumf x init h' hu (ix2 b p)
      = (Finset.univ : Finset (Fin n)).fold max (init (Shape.Idx.first hu)) (fun k => x (ix3 b p k)) :=
  (Host.reduce_eq_fold_single FloatOps.maximumf x init h' h hu (ix2 b p)).trans
    (congrArg (fun f => (Finset.univ : Finset (Fin n)).fold max (init (Shape.Idx.first hu)) f)
      (funext fun k => congrArg x (lift_last h b p k)))

/-- The host's maximum over the MIDDLE axis of an `[l, m, n]` array of extended reals, read at `(b, c)`: the fold of
    `max` from the initial value over the entries `(b, k, c)`. -/
theorem hostReduce_maximumf_mid {l m n : ℕ} {u : Shape} (x : FVec Ideal ⟨3, ![l, m, n]⟩ .f32) (init : u.Idx → Ideal .f32)
    (h' : (⟨3, ![l, m, n]⟩ : Shape).ReducesTo [1] (⟨2, ![l, n]⟩ : Shape))
    (h : (⟨3, ![l, m, n]⟩ : Shape).Reduces [1] (⟨2, ![l, n]⟩ : Shape)) (hu : 0 < u.numel) (b : Fin l) (c : Fin n) :
    Host.reduce FloatOps.maximumf x init h' hu (ix2 b c)
      = (Finset.univ : Finset (Fin m)).fold max (init (Shape.Idx.first hu)) (fun k => x (ix3 b k c)) :=
  (Host.reduce_eq_fold_single FloatOps.maximumf x init h' h hu (ix2 b c)).trans
    (congrArg (fun f => (Finset.univ : Finset (Fin m)).fold max (init (Shape.Idx.first hu)) f)
      (funext fun k => congrArg x (lift_mid h b c k)))

/-- A `[1, a, 1]` block cast to the column `[a, 1]` reads, at `(p, u)`, the block at `(0, p, 0)`. -/
theorem shapeCast_1a1_a1_apply {a : ℕ} (x : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ x h (ix2 p u) = x (ix3 (0 : Fin 1) p (0 : Fin 1)) :=
  shapeCast_apply x h _ _ (by
    have hu : u.val = 0 := by omega
    rw [Shape.rowMajor_val_three, Shape.rowMajor_val_two]
    show (0 * a + p.val) * 1 + 0 = p.val * 1 + u.val
    omega)

/-- A `[1, 1, b]` block cast to the row `[1, b]` reads, at `(u, c)`, the block at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.ColumnReads
-- ==== Proof.RefIsSpec.lean ====
/-
  The reference computes the layer.

  The reference repeats `x` along a new last axis and `k` along a new first axis to [256, 1024, 1024], subtracts,
  takes the maximum over the middle axis from minus infinity, and joins the result with the bias repeated down
  the rows. Read at `(p, q)`: the entry `(p, i, q)` of the difference is `x (p, i) - k (i, q)`, the maximum over the
  middle axis is the fold of `max` over `i`, and the repeated bias has entry `q` of the bias: the layer's value.
-/
import proofs.«179528_j10393820857004_2_alg».proof.Proof.Gen.ReferenceIdeal.Read
import proofs.«179528_j10393820857004_2_alg».proof.Proof.LibColumnReads
import proofs.«179528_j10393820857004_2_alg».proof.Proof.Spec

noncomputable section

namespace Cert.MaxPlus

open Cert.ReferenceIdeal Cert.ReferenceIdeal.Gen Cert.ReferenceIdeal.Read Idealize.ShloMosaic Idealize.ShloMosaic.ValueIdx

/-- The reference's maximum over the middle axis, at `(p, q)`: the max-plus entry. -/
theorem reference_product (x0 : FVec Ideal S256x1024 .f32) (x1 : FVec Ideal S1024x1024 .f32) (p : Fin 256) (q : Fin 1024) :
    val_main_v5 (F := Ideal) x0 x1 (ix2 p q) = product start x0 x1 p q := by
  unfold val_main_v5
  refine (Cert.ColumnReads.hostReduce_maximumf_mid _ _ _ (by decide) _ p q).trans ?_
  unfold product
  refine congrArg (fun f => (Finset.univ : Finset (Fin 1024)).fold max start f) (funext fun i => ?_)
  rw [val_main_v4_apply, val_main_v2_apply, val_main_v0_apply, val_main_v3_apply, val_main_v1_apply]
  refine congrArg₂ (fun s t : EReal => s - t) (congrArg x0 ?_) (congrArg x1 ?_)
  · funext a; match a with | ⟨0, _⟩ => rfl | ⟨1, _⟩ => rfl
  · funext a; match a with | ⟨0, _⟩ => rfl | ⟨1, _⟩ => rfl

/-- The reference's result is the layer, at every index. -/
theorem reference_eq (x0 : FVec Ideal S256x1024 .f32) (x1 : FVec Ideal S1024x1024 .f32) (x2 : FVec Ideal S1024 .f32) :
    val_main_v8 (F := Ideal) x0 x1 x2 = layerArray x0 x1 x2 := by
  funext j
  obtain ⟨p, q, rfl⟩ : ∃ (p : Fin 256) (q : Fin 1024), j = ix2 p q := ⟨j 0, j 1, eq_ix2 j⟩
  rw [val_main_v8_apply, layerArray_apply]
  unfold layer
  refine congrArg₂ (fun s t : EReal => max s t) (reference_product x0 x1 p q) ?_
  rw [val_main_v7_apply, val_main_v6_apply]
  exact congrArg x2 (funext fun a => match a with | ⟨0, _⟩ => rfl)

end Cert.MaxPlus

end
-- ==== Proof.lean ====
/-
  A tropical ("max-plus") dense layer: for `x : [256, 1024]`, `k : [1024, 1024]` and `bias : [1024]`,

      out (p, q) = max ( max over i < 1024 of ( x (p, i) - k (i, q) ),  bias q ),

  the inner maximum started from minus infinity.

  The kernel tiles the output in 2 × 8 blocks of [128, 128]. A grid point holds 128 rows of `x`, 128 columns of `k` and
  the matching 128 entries of the bias, and walks the 1024 positions `i` in eight chunks of 128: each trip joins a
  running block with the maximum over its chunk, and after the last trip the running block is joined with the bias.
  The reference forms the whole [256, 1024, 1024] array of differences, takes its maximum over the middle axis, and
  joins the bias.

  On the extended reals both are the same function of the arguments, entry by entry. `max` is associative,
  commutative and idempotent on a total order, so a maximum taken chunk by chunk is the maximum taken at once
  (Spec.lean: both have the same upper bounds); subtraction is the same operation on both sides and is never
  rearranged. Nothing uses that the inputs are finite: the statement holds for all extended reals, so the
  precondition is never opened.

  Spec.lean states the layer and the chunk law. RefIsSpec.lean reads the reference's result at an index.
  BodyReads.lean reads the kernel body's three values at an entry, LoopValue.lean what a grid point leaves in its
  block, KernelValue.lean the output array after the run. Below, the five claims are assembled: the three programs
  run and leave their arguments unchanged; the kernel's idealization rewrote nothing; the two idealized programs end
  with equal results.
-/
import proofs.«179528_j10393820857004_2_alg».proof.Defs
import proofs.«179528_j10393820857004_2_alg».proof.Proof.Gen.Kernel
import proofs.«179528_j10393820857004_2_alg».proof.Proof.Gen.Kernel.Frame
import proofs.«179528_j10393820857004_2_alg».proof.Proof.Gen.KernelIdeal
import proofs.«179528_j10393820857004_2_alg».proof.Proof.Gen.KernelIdeal.Frame
import proofs.«179528_j10393820857004_2_alg».proof.Proof.Gen.KernelIdeal.Value
import proofs.«179528_j10393820857004_2_alg».proof.Proof.Gen.ReferenceIdeal
import proofs.«179528_j10393820857004_2_alg».proof.Proof.Gen.ReferenceIdeal.Run
import proofs.«179528_j10393820857004_2_alg».proof.Proof.Gen.ReferenceIdeal.Read
import proofs.«179528_j10393820857004_2_alg».proof.Proof.Gen.Pre_finite_inputs
import proofs.«179528_j10393820857004_2_alg».proof.Proof.KernelValue
import proofs.«179528_j10393820857004_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel, on float words, runs and leaves its arguments unchanged. -/
theorem frame_kernel : Cert.frame_Kernel := fun m ρ _ => Cert.Kernel.Gen.frame m ρ

/-- The kernel, on extended reals, runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments, the kernel and the reference both end with the layer of the arguments in
    their result arrays. -/
theorem algebraic : Cert.algebraic_KernelIdeal_ReferenceIdeal := by
  intro m ρ m' ρ' _ hagree
  refine ⟨fun c => Cert.MaxPlus.layerArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.MaxPlus.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.MaxPlus.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
